-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S128x256 .f32) (main_arg3 : FVec F S128 .f32) (main_arg4 : FVec F S3x128x128 .f32) (main_arg5 : FVec F S3x128 .f32) (main_arg6 : FVec F S3x128x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S256x128 : Shape := ⟨2, ![256, 128]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩

abbrev nBuf : Space → Nat
  | .hbm => 99
  | .vmem => 33
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S256x128, .f32⟩
  | .hbm, ⟨12, _⟩ => ⟨S1x128, .f32⟩
  | .hbm, ⟨13, _⟩ => ⟨S50000x128, .f32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128x128, .f32⟩
  | .hbm, ⟨40, _⟩ => ⟨S128x128, .f32⟩
  | .hbm, ⟨41, _⟩ => ⟨S1x128, .f32⟩
  | .hbm, ⟨42, _⟩ => ⟨S128, .f32⟩
  | .hbm, ⟨43, _⟩ => ⟨S1x128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S1x128x128, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S1x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S1x128x128, .f32⟩
  | .hbm, ⟨94, _⟩ => ⟨S128x128, .f32⟩
  | .hbm, ⟨95, _⟩ => ⟨S128x128, .f32⟩
  | .hbm, ⟨96, _⟩ => ⟨S128x128, .f32⟩
  | .hbm, ⟨97, _⟩ => ⟨S1x128, .f32⟩
  | .hbm, ⟨98, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_7 : Ref sig .tc := ⟨.hbm, 74, rfl⟩
abbrev main_v58 : Ref sig .tc := ⟨.hbm, 75, rfl⟩
abbrev main_v59 : Ref sig .tc := ⟨.hbm, 76, rfl⟩
abbrev main_c_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x256_S256x128_1_0 : S128x256.Transposes [1, 0] S256x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S5000x256_S256x128_S5000x128_1_0_0_1_n_n_wf : DotDims.WF S5000x256 S256x128 S5000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S256x128 : Shape := ⟨2, ![256, 128]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S256x128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128x128, .f32⟩
  | .hbm, ⟨42, _⟩ => ⟨S128x128, .f32⟩
  | .hbm, ⟨43, _⟩ => ⟨S128x128, .f32⟩
  | .hbm, ⟨44, _⟩ => ⟨S50000x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S1x128x128, .f32⟩
  | .hbm, ⟨51, _⟩ => ⟨S128x128, .f32⟩
  | .hbm, ⟨52, _⟩ => ⟨S128x128, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128x128, .f32⟩
  | .hbm, ⟨71, _⟩ => ⟨S128x128, .f32⟩
  | .hbm, ⟨72, _⟩ => ⟨S128x128, .f32⟩
  | .hbm, ⟨73, _⟩ => ⟨S50000x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S1x128x128, .f32⟩
  | .hbm, ⟨80, _⟩ => ⟨S128x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S1x128x128, .f32⟩
  | .hbm, ⟨100, _⟩ => ⟨S128x128, .f32⟩
  | .hbm, ⟨101, _⟩ => ⟨S128x128, .f32⟩
  | .hbm, ⟨102, _⟩ => ⟨S50000x128, .f32⟩
  | .hbm, ⟨103, _⟩ => ⟨S1x128, .f32⟩
  | .hbm, ⟨104, _⟩ => ⟨S128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S1x128x128, .f32⟩
  | .hbm, ⟨109, _⟩ => ⟨S128x128, .f32⟩
  | .hbm, ⟨110, _⟩ => ⟨S128x128, .f32⟩
  | .hbm, ⟨111, _⟩ => ⟨S50000x128, .f32⟩
  | .hbm, ⟨112, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_7 : Ref sig .tc := ⟨.hbm, 84, rfl⟩
abbrev main_v68 : Ref sig .tc := ⟨.hbm, 85, rfl⟩
abbrev main_v69 : Ref sig .tc := ⟨.hbm, 86, rfl⟩
abbrev main_c_8 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RunValue.lean ====
/-
  The idealized kernel's run, with its result named.

  @main is eight segments: four stretches of host operations and four pipelined regions. The buffers' contents at
  each boundary are a fold from the launch memory: a stretch applies its operations in order, a region leaves each of
  its arrays at what its write-backs leave and every other buffer alone. Every weakly fair execution terminates with
  every buffer at the last boundary's contents; read at the result buffer and at the seven arguments, this is the
  run with the result at the fold's last value and the arguments as launched.
-/
import proofs.«116892_j28037546508938_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v79) = W8 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v79 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.Dense.lean ====
/-
  The four kernel bodies, each as a dense layer of the blocks it loads.

  The encoder's body stores, for its block of 5000 rows, x · w + b: the block of x against the whole [256, 128]
  weight in one matrix-unit product into a zero accumulator, plus the bias row laid along the rows. Each of the three
  combine bodies stores s · wl + b + h · wr for its block of 5000 rows of s and h, the two [128, 128] weights whole.
  The narrowing of the operands before the products and the reshapes of a shape to itself change nothing at the ideal
  values, so each stored value is the layer (`Cert.LibAffine.affine`, `affine2`) of the loaded blocks.
-/
import proofs.«116892_j28037546508938_1_alg».proof.Proof.Gen.KernelIdeal.Skeleton
import proofs.«116892_j28037546508938_1_alg».proof.Proof.LibAffine

noncomputable section

namespace Cert.KernelIdeal.Dense

open Cert.KernelIdeal Cert.KernelIdeal.Gen Cert.LibAffine Idealize.ShloMosaic Idealize.ShloMosaic.ValueIdx

/-! ## The two block products' dimension records: rows of the left operand, columns of the right, one contracted axis -/

theorem d0_l0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem d0_l1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem d0_r0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem d0_r1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

theorem d1_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d1_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem d1_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem d1_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The stored values -/

/-- The encoder's body stores the dense layer of its loaded blocks. -/
theorem pay0_eq (x0 : Vec Ideal S5000x256 .f32) (x1 : Vec Ideal S256x128 .f32) (x2 : Vec Ideal S1x128 .f32) :
    k0_pay1 x0 x1 x2 = affine x0 x1 x2 := by
  have e1 : shapeCast S256x128 x1 shapeCasts_S256x128_S256x128 = x1 := shapeCast_self _ _
  have e2 : shapeCast S1x128 x2 shapeCasts_S1x128_S1x128 = x2 := shapeCast_self _ _
  unfold k0_pay1
  rw [e1, e2]
  exact coreAffine_eq dot_S5000x256_S256x128_S5000x128_1_0_0_1_n_n rfl rfl d0_l0 d0_l1 d0_r0 d0_r1 broadcasts_S1x128_S5000x128 none
    (truncf .bf16 x0 bitsLt_bf16_f32) (truncf .bf16 x1 bitsLt_bf16_f32) x2

/-- A combine body stores the two-product layer of its loaded blocks. -/
theorem pay1_eq (v0 v3 : Vec Ideal S5000x128 .f32) (v6 v9 : Vec Ideal S128x128 .f32) (v14 : Vec Ideal S1x128 .f32) :
    k1_pay1 v0 v3 v6 v9 v14 = affine2 v0 v3 v6 v14 v9 := by
  have e0 : shapeCast S5000x128 v0 shapeCasts_S5000x128_S5000x128 = v0 := shapeCast_self _ _
  have e3 : shapeCast S5000x128 v3 shapeCasts_S5000x128_S5000x128 = v3 := shapeCast_self _ _
  have e6 : shapeCast S128x128 v6 shapeCasts_S128x128_S128x128 = v6 := shapeCast_self _ _
  have e9 : shapeCast S128x128 v9 shapeCasts_S128x128_S128x128 = v9 := shapeCast_self _ _
  have e14 : shapeCast S1x128 v14 shapeCasts_S1x128_S1x128 = v14 := shapeCast_self _ _
  unfold k1_pay1
  rw [e0, e3, e6, e9, e14]
  exact coreAffine2_eq dot_S5000x128_S128x128_S5000x128_1_0_0_1_n_n rfl rfl d1_l0 d1_l1 d1_r0 d1_r1 broadcasts_S1x128_S5000x128 none
    (truncf .bf16 v0 bitsLt_bf16_f32) (truncf .bf16 v3 bitsLt_bf16_f32) (truncf .bf16 v6 bitsLt_bf16_f32)
    (truncf .bf16 v9 bitsLt_bf16_f32) v14

/-- The second combine body: the same value. -/
theorem pay2_eq (v0 v3 : Vec Ideal S5000x128 .f32) (v6 v9 : Vec Ideal S128x128 .f32) (v14 : Vec Ideal S1x128 .f32) :
    k2_pay1 v0 v3 v6 v9 v14 = affine2 v0 v3 v6 v14 v9 := by
  have e0 : shapeCast S5000x128 v0 shapeCasts_S5000x128_S5000x128 = v0 := shapeCast_self _ _
  have e3 : shapeCast S5000x128 v3 shapeCasts_S5000x128_S5000x128 = v3 := shapeCast_self _ _
  have e6 : shapeCast S128x128 v6 shapeCasts_S128x128_S128x128 = v6 := shapeCast_self _ _
  have e9 : shapeCast S128x128 v9 shapeCasts_S128x128_S128x128 = v9 := shapeCast_self _ _
  have e14 : shapeCast S1x128 v14 shapeCasts_S1x128_S1x128 = v14 := shapeCast_self _ _
  unfold k2_pay1
  rw [e0, e3, e6, e9, e14]
  exact coreAffine2_eq dot_S5000x128_S128x128_S5000x128_1_0_0_1_n_n rfl rfl d1_l0 d1_l1 d1_r0 d1_r1 broadcasts_S1x128_S5000x128 none
    (truncf .bf16 v0 bitsLt_bf16_f32) (truncf .bf16 v3 bitsLt_bf16_f32) (truncf .bf16 v6 bitsLt_bf16_f32)
    (truncf .bf16 v9 bitsLt_bf16_f32) v14

/-- The third combine body: the same value. -/
theorem pay3_eq (v0 v3 : Vec Ideal S5000x128 .f32) (v6 v9 : Vec Ideal S128x128 .f32) (v14 : Vec Ideal S1x128 .f32) :
    k3_pay1 v0 v3 v6 v9 v14 = affine2 v0 v3 v6 v14 v9 := by
  have e0 : shapeCast S5000x128 v0 shapeCasts_S5000x128_S5000x128 = v0 := shapeCast_self _ _
  have e3 : shapeCast S5000x128 v3 shapeCasts_S5000x128_S5000x128 = v3 := shapeCast_self _ _
  have e6 : shapeCast S128x128 v6 shapeCasts_S128x128_S128x128 = v6 := shapeCast_self _ _
  have e9 : shapeCast S128x128 v9 shapeCasts_S128x128_S128x128 = v9 := shapeCast_self _ _
  have e14 : shapeCast S1x128 v14 shapeCasts_S1x128_S1x128 = v14 := shapeCast_self _ _
  unfold k3_pay1
  rw [e0, e3, e6, e9, e14]
  exact coreAffine2_eq dot_S5000x128_S128x128_S5000x128_1_0_0_1_n_n rfl rfl d1_l0 d1_l1 d1_r0 d1_r1 broadcasts_S1x128_S5000x128 none
    (truncf .bf16 v0 bitsLt_bf16_f32) (truncf .bf16 v3 bitsLt_bf16_f32) (truncf .bf16 v6 bitsLt_bf16_f32)
    (truncf .bf16 v9 bitsLt_bf16_f32) v14

end Cert.KernelIdeal.Dense

end
-- ==== Proof.Region0.lean ====
/-
  The encoder's region: the output array once every grid point has run.

  The grid has ten points; point t loads rows 5000·t … 5000·t + 4999 of x (all 256 columns), the whole weight and the
  whole bias row, and writes back rows 5000·t … 5000·t + 4999 of the output. Entry (p, j) of the dense layer reads only
  row p of x, so the block a point writes is the same block of the dense layer of the WHOLE arrays; the ten blocks
  cover the 50000 rows; so the output array ends at the dense layer of the arrays the region was entered with.
-/
import proofs.«116892_j28037546508938_1_alg».proof.Proof.Gen.KernelIdeal.Frame
import proofs.«116892_j28037546508938_1_alg».proof.Proof.Dense
import Idealize.ShloMosaic.Lib.Pipeline.Value

set_option maxRecDepth 16384

noncomputable section

namespace Cert.KernelIdeal.Region0

open Cert.KernelIdeal Cert.KernelIdeal.Gen Cert.KernelIdeal.Dense Cert.LibAffine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: x's block and the output's block sit at the same row block, in column block
    0; the weight's and the bias's block is the whole array; the output's row block is one of the ten. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point t writes back is block t of the dense layer of the arrays as the region finds them. -/
theorem flushed_eq (c : Dev nD) (t : Fin cfg0.N) :
    (dat0 V c).flushed 3 t = ((cfg0.win 3).blk t).view.read (Elt Ideal)
      (affine (a := 50000) (k := 256) (n := 128) (V c main_arg0) (V c main_v4) (V c main_v5)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  rw [pay0_eq]
  obtain ⟨e0, e1, e2, e3, e4, e5, e6, e7⟩ := idx_facts t
  funext y
  obtain ⟨p, j, rfl⟩ : ∃ (p : Fin 5000) (j : Fin 128), y = ix2 p j := ⟨y 0, y 1, eq_ix2 y⟩
  have hp : p.val < 5000 := p.isLt
  have hj : j.val < 128 := j.isLt
  have hemb : ((cfg0.win 3).blk t).view.emb (ix2 p j)
      = ix2 (⟨win0_3.index t (0 : Fin 2) * 5000 + p.val, by omega⟩ : Fin 50000) j := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * j.val = j.val; omega
  show affine (iblk0 V c 0 t) (iblk0 V c 1 t) (iblk0 V c 2 t) (ix2 p j)
    = affine (a := 50000) (k := 256) (n := 128) (V c main_arg0) (V c main_v4) (V c main_v5) (((cfg0.win 3).blk t).view.emb (ix2 p j))
  rw [hemb, affine_ix2, affine_ix2]
  refine affineAt_congr _ _ _ _ _ _ p _ j (fun q => ?_) (fun q => ?_) ?_
  · have hq : q.val < 256 := q.isLt
    show V c main_arg0 (((cfg0.win 0).blk t).view.emb (ix2 p q)) = V c main_arg0 _
    refine congrArg (V c main_arg0) (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 256 + 1 * q.val = q.val; omega
  · have hq : q.val < 256 := q.isLt
    show V c main_v4 (((cfg0.win 1).blk t).view.emb (ix2 q j)) = V c main_v4 _
    refine congrArg (V c main_v4) (funext fun a => Fin.ext ?_)
    match a with
    | ⟨0, _⟩ => show win0_1.index t (0 : Fin 2) * 256 + 1 * q.val = q.val; omega
    | ⟨1, _⟩ => show win0_1.index t (1 : Fin 2) * 128 + 1 * j.val = j.val; omega
  · show V c main_v5 (((cfg0.win 2).blk t).view.emb (ix2 (0 : Fin 1) j)) = V c main_v5 _
    refine congrArg (V c main_v5) (funext fun a => Fin.ext ?_)
    match a with
    | ⟨0, _⟩ => show win0_2.index t (0 : Fin 2) * 1 + 1 * 0 = 0; omega
    | ⟨1, _⟩ => show win0_2.index t (1 : Fin 2) * 128 + 1 * j.val = j.val; omega

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v6).slice (win0_3.rect t)).set ↔ _
  rw [View.set_slice_whole, Rect.mem_set_unit]
  exact Iff.rfl

/-- Every index of the output array is in some point's block: row r is in the block of point r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the dense layer of the arrays the region was entered with. -/
theorem final (c : Dev nD) :
    (dat0 V c).arrAt 3 cfg0.N = affine (a := 50000) (k := 256) (n := 128) (V c main_arg0) (V c main_v4) (V c main_v5) :=
  (dat0 V c).arrAt_eq_of_cover 3 _ (fun t _ => flushed_eq V c t) cover

end Cert.KernelIdeal.Region0

end
-- ==== Proof.Region1.lean ====
/-
  Combine region 1: the output array once every grid point has run.

  The grid has ten points; point t loads rows 5000·t … 5000·t + 4999 of the aggregated features s and of the node
  features h (all 128 columns), the two [128, 128] weights whole and the bias row whole, and writes back rows
  5000·t … 5000·t + 4999 of the output. Entry (p, j) of the two-product layer s · wl + b + h · wr reads only row p of
  s and of h, so the block a point writes is the same block of the layer of the WHOLE arrays; the ten blocks cover the
  50000 rows; so the output array ends at the layer of the arrays the region was entered with.
-/
import proofs.«116892_j28037546508938_1_alg».proof.Proof.Gen.KernelIdeal.Frame
import proofs.«116892_j28037546508938_1_alg».proof.Proof.Dense
import Idealize.ShloMosaic.Lib.Pipeline.Value

set_option maxRecDepth 16384

noncomputable section

namespace Cert.KernelIdeal.Region1

open Cert.KernelIdeal Cert.KernelIdeal.Gen Cert.KernelIdeal.Dense Cert.LibAffine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the blocks of s, of h and of the output sit at the same row block, in
    column block 0; each weight's and the bias's block is the whole array; the output's row block is one of the ten. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the ten row blocks is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

set_option maxHeartbeats 2000000 in
/-- What point t writes back is block t of the two-product layer of the arrays as the region finds them. -/
theorem flushed_eq (c : Dev nD) (t : Fin cfg1.N) :
    (dat1 V c).flushed 5 t = ((cfg1.win 5).blk t).view.read (Elt Ideal)
      (affine2 (a := 50000) (k := 128) (n := 128) (V c main_v25) (V c main_v6) (V c main_v32) (V c main_v34) (V c main_v33)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay1_eq]
  obtain ⟨e0, e1, e2, e3, e4, e5, e6, e7, e8, e9, e10, e11⟩ := idx_facts t
  funext y
  obtain ⟨p, j, rfl⟩ : ∃ (p : Fin 5000) (j : Fin 128), y = ix2 p j := ⟨y 0, y 1, eq_ix2 y⟩
  have hp : p.val < 5000 := p.isLt
  have hj : j.val < 128 := j.isLt
  have hemb : ((cfg1.win 5).blk t).view.emb (ix2 p j)
      = ix2 (⟨win1_5.index t (0 : Fin 2) * 5000 + p.val, by omega⟩ : Fin 50000) j := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 128 + 1 * j.val = j.val; omega
  show affine2 (iblk1 V c 0 t) (iblk1 V c 1 t) (iblk1 V c 2 t) (iblk1 V c 3 t) (iblk1 V c 4 t) (ix2 p j)
    = affine2 (a := 50000) (k := 128) (n := 128) (V c main_v25) (V c main_v6) (V c main_v32) (V c main_v34) (V c main_v33)
        (((cfg1.win 5).blk t).view.emb (ix2 p j))
  rw [hemb, affine2_ix2, affine2_ix2]
  refine affine2At_congr _ _ _ _ _ _ _ _ _ _ p _ j (fun q => ?_) (fun q => ?_) (fun q => ?_) ?_ (fun q => ?_)
  · have hq : q.val < 128 := q.isLt
    show V c main_v25 (((cfg1.win 0).blk t).view.emb (ix2 p q)) = V c main_v25 _
    refine congrArg (V c main_v25) (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 128 + 1 * q.val = q.val; omega
  · have hq : q.val < 128 := q.isLt
    show V c main_v6 (((cfg1.win 1).blk t).view.emb (ix2 p q)) = V c main_v6 _
    refine congrArg (V c main_v6) (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 128 + 1 * q.val = q.val; omega
  · have hq : q.val < 128 := q.isLt
    show V c main_v32 (((cfg1.win 2).blk t).view.emb (ix2 q j)) = V c main_v32 _
    refine congrArg (V c main_v32) (funext fun a => Fin.ext ?_)
    match a with
    | ⟨0, _⟩ => show win1_2.index t (0 : Fin 2) * 128 + 1 * q.val = q.val; omega
    | ⟨1, _⟩ => show win1_2.index t (1 : Fin 2) * 128 + 1 * j.val = j.val; omega
  · show V c main_v34 (((cfg1.win 3).blk t).view.emb (ix2 (0 : Fin 1) j)) = V c main_v34 _
    refine congrArg (V c main_v34) (funext fun a => Fin.ext ?_)
    match a with
    | ⟨0, _⟩ => show win1_3.index t (0 : Fin 2) * 1 + 1 * 0 = 0; omega
    | ⟨1, _⟩ => show win1_3.index t (1 : Fin 2) * 128 + 1 * j.val = j.val; omega
  · have hq : q.val < 128 := q.isLt
    show V c main_v33 (((cfg1.win 4).blk t).view.emb (ix2 q j)) = V c main_v33 _
    refine congrArg (V c main_v33) (funext fun a => Fin.ext ?_)
    match a with
    | ⟨0, _⟩ => show win1_4.index t (0 : Fin 2) * 128 + 1 * q.val = q.val; omega
    | ⟨1, _⟩ => show win1_4.index t (1 : Fin 2) * 128 + 1 * j.val = j.val; omega

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v35).slice (win1_5.rect t)).set ↔ _
  rw [View.set_slice_whole, Rect.mem_set_unit]
  exact Iff.rfl

/-- Every index of the output array is in some point's block: row r is in the block of point r / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the two-product layer of the arrays the region was entered with. -/
theorem final (c : Dev nD) :
    (dat1 V c).arrAt 5 cfg1.N
      = affine2 (a := 50000) (k := 128) (n := 128) (V c main_v25) (V c main_v6) (V c main_v32) (V c main_v34) (V c main_v33) :=
  (dat1 V c).arrAt_eq_of_cover 5 _ (fun t _ => flushed_eq V c t) cover

end Cert.KernelIdeal.Region1

end
-- ==== Proof.Region2.lean ====
/-
  Combine region 2: the output array once every grid point has run.

  The grid has ten points; point t loads rows 5000·t … 5000·t + 4999 of the aggregated features s and of the node
  features h (all 128 columns), the two [128, 128] weights whole and the bias row whole, and writes back rows
  5000·t … 5000·t + 4999 of the output. Entry (p, j) of the two-product layer s · wl + b + h · wr reads only row p of
  s and of h, so the block a point writes is the same block of the layer of the WHOLE arrays; the ten blocks cover the
  50000 rows; so the output array ends at the layer of the arrays the region was entered with.
-/
import proofs.«116892_j28037546508938_1_alg».proof.Proof.Gen.KernelIdeal.Frame
import proofs.«116892_j28037546508938_1_alg».proof.Proof.Dense
import Idealize.ShloMosaic.Lib.Pipeline.Value

set_option maxRecDepth 16384

noncomputable section

namespace Cert.KernelIdeal.Region2

open Cert.KernelIdeal Cert.KernelIdeal.Gen Cert.KernelIdeal.Dense Cert.LibAffine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the blocks of s, of h and of the output sit at the same row block, in
    column block 0; each weight's and the bias's block is the whole array; the output's row block is one of the ten. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every one of the ten row blocks is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

set_option maxHeartbeats 2000000 in
/-- What point t writes back is block t of the two-product layer of the arrays as the region finds them. -/
theorem flushed_eq (c : Dev nD) (t : Fin cfg2.N) :
    (dat2 V c).flushed 5 t = ((cfg2.win 5).blk t).view.read (Elt Ideal)
      (affine2 (a := 50000) (k := 128) (n := 128) (V c main_v47) (V c main_v35) (V c main_v54) (V c main_v56) (V c main_v55)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  rw [pay2_eq]
  obtain ⟨e0, e1, e2, e3, e4, e5, e6, e7, e8, e9, e10, e11⟩ := idx_facts t
  funext y
  obtain ⟨p, j, rfl⟩ : ∃ (p : Fin 5000) (j : Fin 128), y = ix2 p j := ⟨y 0, y 1, eq_ix2 y⟩
  have hp : p.val < 5000 := p.isLt
  have hj : j.val < 128 := j.isLt
  have hemb : ((cfg2.win 5).blk t).view.emb (ix2 p j)
      = ix2 (⟨win2_5.index t (0 : Fin 2) * 5000 + p.val, by omega⟩ : Fin 50000) j := by
    funext a; apply Fin.ext
    match a with
    | ⟨0, _⟩ => show win2_5.index t (0 : Fin 2) * 5000 + 1 * p.val = win2_5.index t (0 : Fin 2) * 5000 + p.val; omega
    | ⟨1, _⟩ => show win2_5.index t (1 : Fin 2) * 128 + 1 * j.val = j.val; omega
  show affine2 (iblk2 V c 0 t) (iblk2 V c 1 t) (iblk2 V c 2 t) (iblk2 V c 3 t) (iblk2 V c 4 t) (ix2 p j)
    = affine2 (a := 50000) (k := 128) (n := 128) (V c main_v47) (V c main_v35) (V c main_v54) (V c main_v56) (V c main_v55)
        (((cfg2.win 5).blk t).view.emb (ix2 p j))
  rw [hemb, affine2_ix2, affine2_ix2]
  refine affine2At_congr _ _ _ _ _ _ _ _ _ _ p _ j (fun q => ?_) (fun q => ?_) (fun q => ?_) ?_ (fun q => ?_)
  · have hq : q.val < 128 := q.isLt
    show V c main_v47 (((cfg2.win 0).blk t).view.emb (ix2 p q)) = V c main_v47 _
    refine congrArg (V c main_v47) (funext fun a => Fin.ext ?_)
    match a with
    | ⟨0, _⟩ => show win2_0.index t (0 : Fin 2) * 5000 + 1 * p.val = win2_5.index t (0 : Fin 2) * 5000 + p.val; omega
    | ⟨1, _⟩ => show win2_0.index t (1 : Fin 2) * 128 + 1 * q.val = q.val; omega
  · have hq : q.val < 128 := q.isLt
    show V c main_v35 (((cfg2.win 1).blk t).view.emb (ix2 p q)) = V c main_v35 _
    refine congrArg (V c main_v35) (funext fun a => Fin.ext ?_)
    match a with
    | ⟨0, _⟩ => show win2_1.index t (0 : Fin 2) * 5000 + 1 * p.val = win2_5.index t (0 : Fin 2) * 5000 + p.val; omega
    | ⟨1, _⟩ => show win2_1.index t (1 : Fin 2) * 128 + 1 * q.val = q.val; omega
  · have hq : q.val < 128 := q.isLt
    show V c main_v54 (((cfg2.win 2).blk t).view.emb (ix2 q j)) = V c main_v54 _
    refine congrArg (V c main_v54) (funext fun a => Fin.ext ?_)
    match a with
    | ⟨0, _⟩ => show win2_2.index t (0 : Fin 2) * 128 + 1 * q.val = q.val; omega
    | ⟨1, _⟩ => show win2_2.index t (1 : Fin 2) * 128 + 1 * j.val = j.val; omega
  · show V c main_v56 (((cfg2.win 3).blk t).view.emb (ix2 (0 : Fin 1) j)) = V c main_v56 _
    refine congrArg (V c main_v56) (funext fun a => Fin.ext ?_)
    match a with
    | ⟨0, _⟩ => show win2_3.index t (0 : Fin 2) * 1 + 1 * 0 = 0; omega
    | ⟨1, _⟩ => show win2_3.index t (1 : Fin 2) * 128 + 1 * j.val = j.val; omega
  · have hq : q.val < 128 := q.isLt
    show V c main_v55 (((cfg2.win 4).blk t).view.emb (ix2 q j)) = V c main_v55 _
    refine congrArg (V c main_v55) (funext fun a => Fin.ext ?_)
    match a with
    | ⟨0, _⟩ => show win2_4.index t (0 : Fin 2) * 128 + 1 * q.val = q.val; omega
    | ⟨1, _⟩ => show win2_4.index t (1 : Fin 2) * 128 + 1 * j.val = j.val; omega

/-- An index of the output array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v57).slice (win2_5.rect t)).set ↔ _
  rw [View.set_slice_whole, Rect.mem_set_unit]
  exact Iff.rfl

/-- Every index of the output array is in some point's block: row r is in the block of point r / 5000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the region: the two-product layer of the arrays the region was entered with. -/
theorem final (c : Dev nD) :
    (dat2 V c).arrAt 5 cfg2.N
      = affine2 (a := 50000) (k := 128) (n := 128) (V c main_v47) (V c main_v35) (V c main_v54) (V c main_v56) (V c main_v55) :=
  (dat2 V c).arrAt_eq_of_cover 5 _ (fun t _ => flushed_eq V c t) cover

end Cert.KernelIdeal.Region2

end
-- ==== Proof.Region3.lean ====
/-
  Combine region 3: the output array once every grid point has run.

  The grid has ten points; point t loads rows 5000·t … 5000·t + 4999 of the aggregated features s and of the node
  features h (all 128 columns), the two [128, 128] weights whole and the bias row whole, and writes back rows
  5000·t … 5000·t + 4999 of the output. Entry (p, j) of the two-product layer s · wl + b + h · wr reads only row p of
  s and of h, so the block a point writes is the same block of the layer of the WHOLE arrays; the ten blocks cover the
  50000 rows; so the output array ends at the layer of the arrays the region was entered with.
-/
import proofs.«116892_j28037546508938_1_alg».proof.Proof.Gen.KernelIdeal.Frame
import proofs.«116892_j28037546508938_1_alg».proof.Proof.Dense
import Idealize.ShloMosaic.Lib.Pipeline.Value

set_option maxRecDepth 16384

noncomputable section

namespace Cert.KernelIdeal.Region3

open Cert.KernelIdeal Cert.KernelIdeal.Gen Cert.KernelIdeal.Dense Cert.LibAffine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the blocks of s, of h and of the output sit at the same row block, in
    column block 0; each weight's and the bias's block is the whole array; the output's row block is one of the ten. -/
theorem idx_facts : ∀ t : Fin cfg3.N, win3_0.index t (0 : Fin 2) = win3_5.index t (0 : Fin 2)
    ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every one of the ten row blocks is some point's. -/
theorem idx_onto : ∀ q0 : Fin 10, ∃ t : Fin cfg3.N, win3_5.index t = ![q0.val, 0] :=
  (by decide +kernel : ∀ q0 : Fin 10, ∃ t : Fin grid3.N, win3_5.index t = ![q0.val, 0])

set_option maxHeartbeats 2000000 in
/-- What point t writes back is block t of the two-product layer of the arrays as the region finds them. -/
theorem flushed_eq (c : Dev nD) (t : Fin cfg3.N) :
    (dat3 V c).flushed 5 t = ((cfg3.win 5).blk t).view.read (Elt Ideal)
      (affine2 (a := 50000) (k := 128) (n := 128) (V c main_v69) (V c main_v57) (V c main_v76) (V c main_v78) (V c main_v77)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  rw [pay3_eq]
  obtain ⟨e0, e1, e2, e3, e4, e5, e6, e7, e8, e9, e10, e11⟩ := idx_facts t
  funext y
  obtain ⟨p, j, rfl⟩ : ∃ (p : Fin 5000) (j : Fin 128), y = ix2 p j := ⟨y 0, y 1, eq_ix2 y⟩
  have hp : p.val < 5000 := p.isLt
  have hj : j.val < 128 := j.isLt
  have hemb : ((cfg3.win 5).blk t).view.emb (ix2 p j)
      = ix2 (⟨win3_5.index t (0 : Fin 2) * 5000 + p.val, by omega⟩ : Fin 50000) j := by
    funext a; apply Fin.ext
    match a with
    | ⟨0, _⟩ => show win3_5.index t (0 : Fin 2) * 5000 + 1 * p.val = win3_5.index t (0 : Fin 2) * 5000 + p.val; omega
    | ⟨1, _⟩ => show win3_5.index t (1 : Fin 2) * 128 + 1 * j.val = j.val; omega
  show affine2 (iblk3 V c 0 t) (iblk3 V c 1 t) (iblk3 V c 2 t) (iblk3 V c 3 t) (iblk3 V c 4 t) (ix2 p j)
    = affine2 (a := 50000) (k := 128) (n := 128) (V c main_v69) (V c main_v57) (V c main_v76) (V c main_v78) (V c main_v77)
        (((cfg3.win 5).blk t).view.emb (ix2 p j))
  rw [hemb, affine2_ix2, affine2_ix2]
  refine affine2At_congr _ _ _ _ _ _ _ _ _ _ p _ j (fun q => ?_) (fun q => ?_) (fun q => ?_) ?_ (fun q => ?_)
  · have hq : q.val < 128 := q.isLt
    show V c main_v69 (((cfg3.win 0).blk t).view.emb (ix2 p q)) = V c main_v69 _
    refine congrArg (V c main_v69) (funext fun a => Fin.ext ?_)
    match a with
    | ⟨0, _⟩ => show win3_0.index t (0 : Fin 2) * 5000 + 1 * p.val = win3_5.index t (0 : Fin 2) * 5000 + p.val; omega
    | ⟨1, _⟩ => show win3_0.index t (1 : Fin 2) * 128 + 1 * q.val = q.val; omega
  · have hq : q.val < 128 := q.isLt
    show V c main_v57 (((cfg3.win 1).blk t).view.emb (ix2 p q)) = V c main_v57 _
    refine congrArg (V c main_v57) (funext fun a => Fin.ext ?_)
    match a with
    | ⟨0, _⟩ => show win3_1.index t (0 : Fin 2) * 5000 + 1 * p.val = win3_5.index t (0 : Fin 2) * 5000 + p.val; omega
    | ⟨1, _⟩ => show win3_1.index t (1 : Fin 2) * 128 + 1 * q.val = q.val; omega
  · have hq : q.val < 128 := q.isLt
    show V c main_v76 (((cfg3.win 2).blk t).view.emb (ix2 q j)) = V c main_v76 _
    refine congrArg (V c main_v76) (funext fun a => Fin.ext ?_)
    match a with
    | ⟨0, _⟩ => show win3_2.index t (0 : Fin 2) * 128 + 1 * q.val = q.val; omega
    | ⟨1, _⟩ => show win3_2.index t (1 : Fin 2) * 128 + 1 * j.val = j.val; omega
  · show V c main_v78 (((cfg3.win 3).blk t).view.emb (ix2 (0 : Fin 1) j)) = V c main_v78 _
    refine congrArg (V c main_v78) (funext fun a => Fin.ext ?_)
    match a with
    | ⟨0, _⟩ => show win3_3.index t (0 : Fin 2) * 1 + 1 * 0 = 0; omega
    | ⟨1, _⟩ => show win3_3.index t (1 : Fin 2) * 128 + 1 * j.val = j.val; omega
  · have hq : q.val < 128 := q.isLt
    show V c main_v77 (((cfg3.win 4).blk t).view.emb (ix2 q j)) = V c main_v77 _
    refine congrArg (V c main_v77) (funext fun a => Fin.ext ?_)
    match a with
    | ⟨0, _⟩ => show win3_4.index t (0 : Fin 2) * 128 + 1 * q.val = q.val; omega
    | ⟨1, _⟩ => show win3_4.index t (1 : Fin 2) * 128 + 1 * j.val = j.val; omega

/-- An index of the output array is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v79).slice (win3_5.rect t)).set ↔ _
  rw [View.set_slice_whole, Rect.mem_set_unit]
  exact Iff.rfl

/-- Every index of the output array is in some point's block: row r is in the block of point r / 5000. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region: the two-product layer of the arrays the region was entered with. -/
theorem final (c : Dev nD) :
    (dat3 V c).arrAt 5 cfg3.N
      = affine2 (a := 50000) (k := 128) (n := 128) (V c main_v69) (V c main_v57) (V c main_v76) (V c main_v78) (V c main_v77) :=
  (dat3 V c).arrAt_eq_of_cover 5 _ (fun t _ => flushed_eq V c t) cover

end Cert.KernelIdeal.Region3

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.Fold.lean ====
/-
  The idealized kernel's buffers at each boundary of @main, as the reference's stages.

  Both programs are the same chain: the edge list split into sources and destinations, a dense encoder, the in-degree
  of every node (a scatter-add of ones, at least one), and three rounds of "gather the sources' rows, scatter-add them
  at the destinations, divide by the degree, combine with the node's own row through two weights and a bias". The
  kernel runs the encoder and the three combines as pipelined regions and everything else as host operations; the
  reference runs everything as host operations. So the kernel's buffers after each stretch and each region are read
  off one by one: a host operation's result is its function of its operands' contents; a region's output array is the
  dense layer of the arrays it was entered with (the region modules), which is the host's product-plus-bias
  (`Cert.LibAffine.hostAffine_eq`, `hostAffine2_eq`); a bias row is a reshape in the kernel and a broadcast in the
  reference, the same row (`Cert.LibColumnRow.shapeCast_row_eq_broadcastInDim`). Each buffer the later stages read is
  stated equal to the reference's stage function of the seven argument arrays, down to the result.
-/
import proofs.«116892_j28037546508938_1_alg».proof.Proof.Gen.KernelIdeal.Frame
import proofs.«116892_j28037546508938_1_alg».proof.Proof.Gen.ReferenceIdeal.Read
import proofs.«116892_j28037546508938_1_alg».proof.Proof.Region0
import proofs.«116892_j28037546508938_1_alg».proof.Proof.Region1
import proofs.«116892_j28037546508938_1_alg».proof.Proof.Region2
import proofs.«116892_j28037546508938_1_alg».proof.Proof.Region3
import proofs.«116892_j28037546508938_1_alg».proof.Proof.LibColumnRow
import Idealize.ShloMosaic.Lib.StableHlo.Run

set_option maxRecDepth 16384

noncomputable section

namespace Cert.KernelIdeal.Fold

open Cert.KernelIdeal Cert.KernelIdeal.Gen Cert.LibAffine
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The reference's two product records: rows of the left operand, columns of the right, one contracted axis -/

/-- The host's encoder product plus the bias row is the dense layer. -/
theorem host_encode (hd : (⟨2, ![1, 128]⟩ : Shape).BroadcastsInDim ⟨2, ![50000, 128]⟩ ![0, 1])
    (x : FVec Ideal ⟨2, ![50000, 256]⟩ .f32) (w : FVec Ideal ⟨2, ![256, 128]⟩ .f32) (b : FVec Ideal ⟨2, ![1, 128]⟩ .f32) :
    addf (Host.dotGeneral Cert.ReferenceIdeal.dot_S50000x256_S256x128_S50000x128_1_0_0_1_n_n none x w)
        (broadcastInDim Cert.ReferenceIdeal.S50000x128 ![0, 1] hd b)
      = affine x w b :=
  hostAffine_eq Cert.ReferenceIdeal.dot_S50000x256_S256x128_S50000x128_1_0_0_1_n_n rfl rfl
    Cert.ReferenceIdeal.Read.lhs_main_v5_0 Cert.ReferenceIdeal.Read.lhs_main_v5_1 Cert.ReferenceIdeal.Read.rhs_main_v5_0 Cert.ReferenceIdeal.Read.rhs_main_v5_1
    hd none x w b

/-- The host's combine — a product, the bias row, a second product — is the two-product layer. -/
theorem host_combine (hd : (⟨2, ![1, 128]⟩ : Shape).BroadcastsInDim ⟨2, ![50000, 128]⟩ ![0, 1])
    (s h : FVec Ideal ⟨2, ![50000, 128]⟩ .f32) (wl : FVec Ideal ⟨2, ![128, 128]⟩ .f32) (b : FVec Ideal ⟨2, ![1, 128]⟩ .f32)
    (wr : FVec Ideal ⟨2, ![128, 128]⟩ .f32) :
    addf (addf (Host.dotGeneral Cert.ReferenceIdeal.dot_S50000x128_S128x128_S50000x128_1_0_0_1_n_n none s wl)
          (broadcastInDim Cert.ReferenceIdeal.S50000x128 ![0, 1] hd b))
        (Host.dotGeneral Cert.ReferenceIdeal.dot_S50000x128_S128x128_S50000x128_1_0_0_1_n_n none h wr)
      = affine2 s h wl b wr :=
  hostAffine2_eq Cert.ReferenceIdeal.dot_S50000x128_S128x128_S50000x128_1_0_0_1_n_n rfl rfl
    Cert.ReferenceIdeal.Read.lhs_main_v31_0 Cert.ReferenceIdeal.Read.lhs_main_v31_1 Cert.ReferenceIdeal.Read.rhs_main_v31_0 Cert.ReferenceIdeal.Read.rhs_main_v31_1
    hd none s h wl b wr

/-! ## After the first stretch: the edge list's two rows, the encoder's weight transposed, its bias as a row -/

theorem W1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results
  rfl
theorem W1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  rfl
theorem W1_v4 : W1 m ρ c (Proc.devRef .tc main_v4) = Cert.ReferenceIdeal.Read.val_main_v4 (F := Ideal) (m ((c.tc : Thread nD τ).loc main_arg2)) := by
  show StableHlo.after hostOps0 (W0 m ρ c) (Proc.devRef .tc main_v4) = _
  after_results
  rfl
theorem W1_v5 : W1 m ρ c (Proc.devRef .tc main_v5) = Cert.ReferenceIdeal.Read.val_main_v6 (F := Ideal) (m ((c.tc : Thread nD τ).loc main_arg3)) := by
  show StableHlo.after hostOps0 (W0 m ρ c) (Proc.devRef .tc main_v5) = _
  after_results
  exact Cert.LibColumnRow.shapeCast_row_eq_broadcastInDim _ _ _
theorem W1_arg0 : W1 m ρ c (Proc.devRef .tc main_arg0) = (m ((c.tc : Thread nD τ).loc main_arg0)) := by
  show StableHlo.after hostOps0 (W0 m ρ c) (Proc.devRef .tc main_arg0) = _
  after_results <;> rfl
theorem W1_arg4 : W1 m ρ c (Proc.devRef .tc main_arg4) = (m ((c.tc : Thread nD τ).loc main_arg4)) := by
  show StableHlo.after hostOps0 (W0 m ρ c) (Proc.devRef .tc main_arg4) = _
  after_results <;> rfl
theorem W1_arg5 : W1 m ρ c (Proc.devRef .tc main_arg5) = (m ((c.tc : Thread nD τ).loc main_arg5)) := by
  show StableHlo.after hostOps0 (W0 m ρ c) (Proc.devRef .tc main_arg5) = _
  after_results <;> rfl
theorem W1_arg6 : W1 m ρ c (Proc.devRef .tc main_arg6) = (m ((c.tc : Thread nD τ).loc main_arg6)) := by
  show StableHlo.after hostOps0 (W0 m ρ c) (Proc.devRef .tc main_arg6) = _
  after_results <;> rfl

/-! ## After the encoder's region: the node features -/

theorem W2_v6 : W2 m ρ c (Proc.devRef .tc main_v6) = Cert.ReferenceIdeal.Read.val_main_v8 (F := Ideal) (m ((c.tc : Thread nD τ).loc main_arg0)) (m ((c.tc : Thread nD τ).loc main_arg2)) (m ((c.tc : Thread nD τ).loc main_arg3)) := by
  refine (W2_arr m ρ c 3).trans ?_
  rw [Region0.final (V1 m ρ) c]
  show affine (W1 m ρ c (Proc.devRef .tc main_arg0)) (W1 m ρ c (Proc.devRef .tc main_v4)) (W1 m ρ c (Proc.devRef .tc main_v5)) = _
  rw [W1_arg0, W1_v4, W1_v5]
  exact (host_encode _ _ _ _).symm
theorem W2_v1 : W2 m ρ c (Proc.devRef .tc main_v1) = Cert.ReferenceIdeal.Read.val_main_v1 (F := Ideal) (m ((c.tc : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)
theorem W2_arg6 : W2 m ρ c (Proc.devRef .tc main_arg6) = (m ((c.tc : Thread nD τ).loc main_arg6)) :=
  (W2_of_ne m ρ c main_arg6 (by decide)).trans (W1_arg6 m ρ c)

/-! ## After stretch 1: the aggregated features, the round's weights transposed, its bias as a row -/

theorem W3_v13 : W3 m ρ c (Proc.devRef .tc main_v13) = Cert.ReferenceIdeal.Read.val_main_v15 (F := Ideal) (m ((c.tc : Thread nD τ).loc main_arg1)) := by
  show StableHlo.after hostOps1 (W2 m ρ c) (Proc.devRef .tc main_v13) = _
  after_results
  rw [W2_v3]
  rfl
set_option maxHeartbeats 4000000 in
theorem W3_v25 : W3 m ρ c (Proc.devRef .tc main_v25) = Cert.ReferenceIdeal.Read.val_main_v27 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W2 m ρ c) (Proc.devRef .tc main_v25) = _
  after_results
  rw [W2_v3, W2_v1, W2_v6]
  rfl
theorem W3_v6 : W3 m ρ c (Proc.devRef .tc main_v6) = Cert.ReferenceIdeal.Read.val_main_v8 (F := Ideal) (m ((c.tc : Thread nD τ).loc main_arg0)) (m ((c.tc : Thread nD τ).loc main_arg2)) (m ((c.tc : Thread nD τ).loc main_arg3)) := by
  show StableHlo.after hostOps1 (W2 m ρ c) (Proc.devRef .tc main_v6) = _
  after_results
  exact W2_v6 m ρ c
theorem W3_v32 : W3 m ρ c (Proc.devRef .tc main_v32) = Cert.ReferenceIdeal.Read.val_main_v30 (F := Ideal) (m ((c.tc : Thread nD τ).loc main_arg4)) := by
  show StableHlo.after hostOps1 (W2 m ρ c) (Proc.devRef .tc main_v32) = _
  after_results
  rw [W2_arg4]
  rfl
theorem W3_v33 : W3 m ρ c (Proc.devRef .tc main_v33) = Cert.ReferenceIdeal.Read.val_main_v39 (F := Ideal) (m ((c.tc : Thread nD τ).loc main_arg6)) := by
  show StableHlo.after hostOps1 (W2 m ρ c) (Proc.devRef .tc main_v33) = _
  after_results
  rw [W2_arg6]
  rfl
theorem W3_v34 : W3 m ρ c (Proc.devRef .tc main_v34) = Cert.ReferenceIdeal.Read.val_main_v34 (F := Ideal) (m ((c.tc : Thread nD τ).loc main_arg5)) := by
  show StableHlo.after hostOps1 (W2 m ρ c) (Proc.devRef .tc main_v34) = _
  after_results
  rw [W2_arg5]
  exact Cert.LibColumnRow.shapeCast_row_eq_broadcastInDim (Cert.ReferenceIdeal.Read.val_main_v33 (F := Ideal) (m ((c.tc : Thread nD τ).loc main_arg5))) _ _
theorem W3_v1 : W3 m ρ c (Proc.devRef .tc main_v1) = Cert.ReferenceIdeal.Read.val_main_v1 (F := Ideal) (m ((c.tc : Thread nD τ).loc main_arg1)) := by
  show StableHlo.after hostOps1 (W2 m ρ c) (Proc.devRef .tc main_v1) = _
  after_results
  exact W2_v1 m ρ c
theorem W3_v3 : W3 m ρ c (Proc.devRef .tc main_v3) = Cert.ReferenceIdeal.Read.val_main_v3 (F := Ideal) (m ((c.tc : Thread nD τ).loc main_arg1)) := by
  show StableHlo.after hostOps1 (W2 m ρ c) (Proc.devRef .tc main_v3) = _
  after_results
  exact W2_v3 m ρ c
theorem W3_arg4 : W3 m ρ c (Proc.devRef .tc main_arg4) = (m ((c.tc : Thread nD τ).loc main_arg4)) := by
  show StableHlo.after hostOps1 (W2 m ρ c) (Proc.devRef .tc main_arg4) = _
  after_results
  exact W2_arg4 m ρ c
theorem W3_arg5 : W3 m ρ c (Proc.devRef .tc main_arg5) = (m ((c.tc : Thread nD τ).loc main_arg5)) := by
  show StableHlo.after hostOps1 (W2 m ρ c) (Proc.devRef .tc main_arg5) = _
  after_results
  exact W2_arg5 m ρ c
theorem W3_arg6 : W3 m ρ c (Proc.devRef .tc main_arg6) = (m ((c.tc : Thread nD τ).loc main_arg6)) := by
  show StableHlo.after hostOps1 (W2 m ρ c) (Proc.devRef .tc main_arg6) = _
  after_results
  exact W2_arg6 m ρ c

/-! ## After combine region 1: the node features of the next round -/

theorem W4_v35 : W4 m ρ c (Proc.devRef .tc main_v35) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W4_arr m ρ c 5).trans ?_
  rw [Region1.final (V3 m ρ) c]
  show affine2 (W3 m ρ c (Proc.devRef .tc main_v25)) (W3 m ρ c (Proc.devRef .tc main_v6)) (W3 m ρ c (Proc.devRef .tc main_v32))
      (W3 m ρ c (Proc.devRef .tc main_v34)) (W3 m ρ c (Proc.devRef .tc main_v33)) = _
  rw [W3_v25, W3_v6, W3_v32, W3_v34, W3_v33]
  exact (host_combine _ _ _ _ _ _).symm
theorem W4_v1 : W4 m ρ c (Proc.devRef .tc main_v1) = Cert.ReferenceIdeal.Read.val_main_v1 (F := Ideal) (m ((c.tc : Thread nD τ).loc main_arg1)) :=
  (W4_of_ne m ρ c main_v1 (by decide)).trans (W3_v1 m ρ c)
theorem W4_v3 : W4 m ρ c (Proc.devRef .tc main_v3) = Cert.ReferenceIdeal.Read.val_main_v3 (F := Ideal) (m ((c.tc : Thread nD τ).loc main_arg1)) :=
  (W4_of_ne m ρ c main_v3 (by decide)).trans (W3_v3 m ρ c)
theorem W4_v13 : W4 m ρ c (Proc.devRef .tc main_v13) = Cert.ReferenceIdeal.Read.val_main_v15 (F := Ideal) (m ((c.tc : Thread nD τ).loc main_arg1)) :=
  (W4_of_ne m ρ c main_v13 (by decide)).trans (W3_v13 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)
theorem W4_arg6 : W4 m ρ c (Proc.devRef .tc main_arg6) = (m ((c.tc : Thread nD τ).loc main_arg6)) :=
  (W4_of_ne m ρ c main_arg6 (by decide)).trans (W3_arg6 m ρ c)

/-! ## After stretch 2: the aggregated features, the round's weights transposed, its bias as a row -/

set_option maxHeartbeats 4000000 in
theorem W5_v47 : W5 m ρ c (Proc.devRef .tc main_v47) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps2 (W4 m ρ c) (Proc.devRef .tc main_v47) = _
  after_results
  rw [W4_v3, W4_v1, W4_v35, W4_v13]
  rfl
theorem W5_v35 : W5 m ρ c (Proc.devRef .tc main_v35) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps2 (W4 m ρ c) (Proc.devRef .tc main_v35) = _
  after_results
  exact W4_v35 m ρ c
theorem W5_v54 : W5 m ρ c (Proc.devRef .tc main_v54) = Cert.ReferenceIdeal.Read.val_main_v56 (F := Ideal) (m ((c.tc : Thread nD τ).loc main_arg4)) := by
  show StableHlo.after hostOps2 (W4 m ρ c) (Proc.devRef .tc main_v54) = _
  after_results
  rw [W4_arg4]
  rfl
theorem W5_v55 : W5 m ρ c (Proc.devRef .tc main_v55) = Cert.ReferenceIdeal.Read.val_main_v65 (F := Ideal) (m ((c.tc : Thread nD τ).loc main_arg6)) := by
  show StableHlo.after hostOps2 (W4 m ρ c) (Proc.devRef .tc main_v55) = _
  after_results
  rw [W4_arg6]
  rfl
theorem W5_v56 : W5 m ρ c (Proc.devRef .tc main_v56) = Cert.ReferenceIdeal.Read.val_main_v60 (F := Ideal) (m ((c.tc : Thread nD τ).loc main_arg5)) := by
  show StableHlo.after hostOps2 (W4 m ρ c) (Proc.devRef .tc main_v56) = _
  after_results
  rw [W4_arg5]
  exact Cert.LibColumnRow.shapeCast_row_eq_broadcastInDim (Cert.ReferenceIdeal.Read.val_main_v59 (F := Ideal) (m ((c.tc : Thread nD τ).loc main_arg5))) _ _
theorem W5_v1 : W5 m ρ c (Proc.devRef .tc main_v1) = Cert.ReferenceIdeal.Read.val_main_v1 (F := Ideal) (m ((c.tc : Thread nD τ).loc main_arg1)) := by
  show StableHlo.after hostOps2 (W4 m ρ c) (Proc.devRef .tc main_v1) = _
  after_results
  exact W4_v1 m ρ c
theorem W5_v3 : W5 m ρ c (Proc.devRef .tc main_v3) = Cert.ReferenceIdeal.Read.val_main_v3 (F := Ideal) (m ((c.tc : Thread nD τ).loc main_arg1)) := by
  show StableHlo.after hostOps2 (W4 m ρ c) (Proc.devRef .tc main_v3) = _
  after_results
  exact W4_v3 m ρ c
theorem W5_v13 : W5 m ρ c (Proc.devRef .tc main_v13) = Cert.ReferenceIdeal.Read.val_main_v15 (F := Ideal) (m ((c.tc : Thread nD τ).loc main_arg1)) := by
  show StableHlo.after hostOps2 (W4 m ρ c) (Proc.devRef .tc main_v13) = _
  after_results
  exact W4_v13 m ρ c
theorem W5_arg4 : W5 m ρ c (Proc.devRef .tc main_arg4) = (m ((c.tc : Thread nD τ).loc main_arg4)) := by
  show StableHlo.after hostOps2 (W4 m ρ c) (Proc.devRef .tc main_arg4) = _
  after_results
  exact W4_arg4 m ρ c
theorem W5_arg5 : W5 m ρ c (Proc.devRef .tc main_arg5) = (m ((c.tc : Thread nD τ).loc main_arg5)) := by
  show StableHlo.after hostOps2 (W4 m ρ c) (Proc.devRef .tc main_arg5) = _
  after_results
  exact W4_arg5 m ρ c
theorem W5_arg6 : W5 m ρ c (Proc.devRef .tc main_arg6) = (m ((c.tc : Thread nD τ).loc main_arg6)) := by
  show StableHlo.after hostOps2 (W4 m ρ c) (Proc.devRef .tc main_arg6) = _
  after_results
  exact W4_arg6 m ρ c

/-! ## After combine region 2: the node features of the next round -/

theorem W6_v57 : W6 m ρ c (Proc.devRef .tc main_v57) = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W6_arr m ρ c 5).trans ?_
  rw [Region2.final (V5 m ρ) c]
  show affine2 (W5 m ρ c (Proc.devRef .tc main_v47)) (W5 m ρ c (Proc.devRef .tc main_v35)) (W5 m ρ c (Proc.devRef .tc main_v54))
      (W5 m ρ c (Proc.devRef .tc main_v56)) (W5 m ρ c (Proc.devRef .tc main_v55)) = _
  rw [W5_v47, W5_v35, W5_v54, W5_v56, W5_v55]
  exact (host_combine _ _ _ _ _ _).symm
theorem W6_v1 : W6 m ρ c (Proc.devRef .tc main_v1) = Cert.ReferenceIdeal.Read.val_main_v1 (F := Ideal) (m ((c.tc : Thread nD τ).loc main_arg1)) :=
  (W6_of_ne m ρ c main_v1 (by decide)).trans (W5_v1 m ρ c)
theorem W6_v3 : W6 m ρ c (Proc.devRef .tc main_v3) = Cert.ReferenceIdeal.Read.val_main_v3 (F := Ideal) (m ((c.tc : Thread nD τ).loc main_arg1)) :=
  (W6_of_ne m ρ c main_v3 (by decide)).trans (W5_v3 m ρ c)
theorem W6_v13 : W6 m ρ c (Proc.devRef .tc main_v13) = Cert.ReferenceIdeal.Read.val_main_v15 (F := Ideal) (m ((c.tc : Thread nD τ).loc main_arg1)) :=
  (W6_of_ne m ρ c main_v13 (by decide)).trans (W5_v13 m ρ c)
theorem W6_arg4 : W6 m ρ c (Proc.devRef .tc main_arg4) = (m ((c.tc : Thread nD τ).loc main_arg4)) :=
  (W6_of_ne m ρ c main_arg4 (by decide)).trans (W5_arg4 m ρ c)
theorem W6_arg5 : W6 m ρ c (Proc.devRef .tc main_arg5) = (m ((c.tc : Thread nD τ).loc main_arg5)) :=
  (W6_of_ne m ρ c main_arg5 (by decide)).trans (W5_arg5 m ρ c)
theorem W6_arg6 : W6 m ρ c (Proc.devRef .tc main_arg6) = (m ((c.tc : Thread nD τ).loc main_arg6)) :=
  (W6_of_ne m ρ c main_arg6 (by decide)).trans (W5_arg6 m ρ c)

/-! ## After stretch 3: the aggregated features, the round's weights transposed, its bias as a row -/

set_option maxHeartbeats 4000000 in
theorem W7_v69 : W7 m ρ c (Proc.devRef .tc main_v69) = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps3 (W6 m ρ c) (Proc.devRef .tc main_v69) = _
  after_results
  rw [W6_v3, W6_v1, W6_v57, W6_v13]
  rfl
theorem W7_v57 : W7 m ρ c (Proc.devRef .tc main_v57) = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps3 (W6 m ρ c) (Proc.devRef .tc main_v57) = _
  after_results
  exact W6_v57 m ρ c
theorem W7_v76 : W7 m ρ c (Proc.devRef .tc main_v76) = Cert.ReferenceIdeal.Read.val_main_v82 (F := Ideal) (m ((c.tc : Thread nD τ).loc main_arg4)) := by
  show StableHlo.after hostOps3 (W6 m ρ c) (Proc.devRef .tc main_v76) = _
  after_results
  rw [W6_arg4]
  rfl
theorem W7_v77 : W7 m ρ c (Proc.devRef .tc main_v77) = Cert.ReferenceIdeal.Read.val_main_v91 (F := Ideal) (m ((c.tc : Thread nD τ).loc main_arg6)) := by
  show StableHlo.after hostOps3 (W6 m ρ c) (Proc.devRef .tc main_v77) = _
  after_results
  rw [W6_arg6]
  rfl
theorem W7_v78 : W7 m ρ c (Proc.devRef .tc main_v78) = Cert.ReferenceIdeal.Read.val_main_v86 (F := Ideal) (m ((c.tc : Thread nD τ).loc main_arg5)) := by
  show StableHlo.after hostOps3 (W6 m ρ c) (Proc.devRef .tc main_v78) = _
  after_results
  rw [W6_arg5]
  exact Cert.LibColumnRow.shapeCast_row_eq_broadcastInDim (Cert.ReferenceIdeal.Read.val_main_v85 (F := Ideal) (m ((c.tc : Thread nD τ).loc main_arg5))) _ _

/-! ## After combine region 3: the node features of the next round -/

theorem W8_v79 : W8 m ρ c (Proc.devRef .tc main_v79) = Cert.ReferenceIdeal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W8_arr m ρ c 5).trans ?_
  rw [Region3.final (V7 m ρ) c]
  show affine2 (W7 m ρ c (Proc.devRef .tc main_v69)) (W7 m ρ c (Proc.devRef .tc main_v57)) (W7 m ρ c (Proc.devRef .tc main_v76))
      (W7 m ρ c (Proc.devRef .tc main_v78)) (W7 m ρ c (Proc.devRef .tc main_v77)) = _
  rw [W7_v69, W7_v57, W7_v76, W7_v78, W7_v77]
  exact (host_combine _ _ _ _ _ _).symm

end Cert.KernelIdeal.Fold

end
-- ==== Proof.lean ====
/-
  A three-round mean-aggregation graph network over 50000 nodes and 800000 edges: the kernel against its reference.

  Both compute, over the extended reals, h₀ = x · W_encᵀ + b_enc and then three times
  h ↦ agg(h) · W_lᵀ + b_l + h · W_rᵀ, where agg(h) gathers the source node's row of h for every edge, adds the rows up
  at the edges' destination nodes and divides each node's sum by its in-degree (at least one). The kernel computes the
  four dense layers in pipelined regions, ten blocks of 5000 rows each, the operands narrowed before each product; the
  reference computes them as whole products. Narrowing is the identity on extended reals, a block of rows of a dense
  layer is the dense layer of the block of rows, and both sums run over the same products in the same order, so the two
  results are the same array; the gathers, the scatter-adds, the degree and the division are the same host operations
  in both programs and are never opened. No law that needs finiteness is used: the precondition is not opened.

  * the three frames: the two kernels' are the generated frame certificates; the reference's is its generated run with
    the result dropped;
  * the idealized kernel is the kernel's own text read at the ideal values (the pass rewrote nothing);
  * the results agree: the idealized kernel's run with its result named (Proof/RunValue.lean), the result buffer
    through the boundaries of @main down to the reference's last stage (Proof/Fold.lean, over Proof/Region0–3.lean,
    Proof/Dense.lean and the general Proof/LibAffine.lean, Proof/LibColumnRow.lean), and the reference's generated
    run and its read-back stages.
-/
import proofs.«116892_j28037546508938_1_alg».proof.Defs
import proofs.«116892_j28037546508938_1_alg».proof.Proof.Gen.Kernel
import proofs.«116892_j28037546508938_1_alg».proof.Proof.Gen.Kernel.Skeleton
import proofs.«116892_j28037546508938_1_alg».proof.Proof.Gen.Kernel.Launch
import proofs.«116892_j28037546508938_1_alg».proof.Proof.Gen.Kernel.Points
import proofs.«116892_j28037546508938_1_alg».proof.Proof.Gen.Kernel.Frame
import proofs.«116892_j28037546508938_1_alg».proof.Proof.Gen.KernelIdeal
import proofs.«116892_j28037546508938_1_alg».proof.Proof.Gen.KernelIdeal.Skeleton
import proofs.«116892_j28037546508938_1_alg».proof.Proof.Gen.KernelIdeal.Launch
import proofs.«116892_j28037546508938_1_alg».proof.Proof.Gen.KernelIdeal.Points
import proofs.«116892_j28037546508938_1_alg».proof.Proof.Gen.KernelIdeal.Frame
import proofs.«116892_j28037546508938_1_alg».proof.Proof.Gen.ReferenceIdeal
import proofs.«116892_j28037546508938_1_alg».proof.Proof.Gen.Pre_finite_inputs
import proofs.«116892_j28037546508938_1_alg».proof.Proof.Gen.ReferenceIdeal.Run
import proofs.«116892_j28037546508938_1_alg».proof.Proof.Gen.ReferenceIdeal.Read
import proofs.«116892_j28037546508938_1_alg».proof.Proof.RunValue
import proofs.«116892_j28037546508938_1_alg».proof.Proof.Fold
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the seven arguments both programs end with the result at the reference's last stage of
    those arguments: the kernel's by the fold through its boundaries, the reference's by its run read back. -/
theorem algebraic : Cert.algebraic_KernelIdeal_ReferenceIdeal := by
  intro m ρ m' ρ' _ hagree
  refine ⟨fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.W8_v79 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v93_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
